-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S256x128 .f32) (main_arg4 : FVec F S128x128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S6400x128 : Shape := ⟨2, ![6400, 128]⟩
abbrev S1x128 : Shape := ⟨2, ![1, 128]⟩
abbrev S5000x128 : Shape := ⟨2, ![5000, 128]⟩

abbrev nBuf : Space → Nat
  | .hbm => 39
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S50000x128, .bf16⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .bf16⟩
  | .hbm, ⟨30, _⟩ => ⟨S128x128, .bf16⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .bf16⟩
  | .hbm, ⟨37, _⟩ => ⟨S1x128, .f32⟩
  | .hbm, ⟨38, _⟩ => ⟨S50000x128, .f32⟩
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S6400x128, .f32⟩
  | .local _ .vmem, ⟨8, _⟩ => ⟨S6400x128, .f32⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .bf16⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .bf16 = 32 ∨ (Rect.block (s := S800000x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .bf16 = 32 ∨ (Rect.block (s := S800000x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S800000x128.size a
  hwx0_5 : ∀ i : grid0.Coords, EltTy.bits .f32 = 32 ∨ (Rect.block (s := S800000x128) S6400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S6400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x256, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.NamedRun.lean ====
/-
  The idealized kernel's run with its result array NAMED.  The program is two pipelined regions among two stretches of
  host operations; the buffer contents at the four boundaries are a fold through the program (launch memory, after the
  first stretch, after region 0's write-backs, after the second stretch, after region 1's write-backs).  Every weakly
  fair execution terminates with each unscoped buffer at the last fold's contents; read at the result buffer this names
  the result, and read at the arguments it gives them back unchanged.
-/
import proofs.«141383_j22179211116725_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven argument arrays as launched. -/
theorem run : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LayerSpec.lean ====
/-
  The two dense stages of a message-passing layer, each as one function of its operand arrays read entry by entry on
  the extended reals, and the laws that join two arrangements of them.

  Edge stage.  For edge e and output feature j the message is
      msg(e, j) = Σ_k max( Σ_c xs(e,c)·A(c,k) + Σ_c xd(e,c)·B(c,k) , z ) · W(k,j),
  xs and xd the source and destination rows of the edge, A and B the two row blocks of the first weight matrix, z the
  zero word, W the second weight matrix.  Joined side by side the two rows make one row of length 2D and A over B one
  matrix of 2D rows, and the inner pair of sums is the one sum over the 2D coordinates cut after the first D
  (a finite sum cut into two consecutive blocks: no finiteness is used).

  Node stage.  For node n and feature j the output is  (s(n,j) + Σ_c f(n,c)·L(c,j)) + b(j),  s the aggregated messages,
  f the node features, L the self-loop weights, b the bias; the other arrangement adds the bias before the self-loop
  term, and the two agree by commutativity and associativity of addition alone.
-/
import Idealize.ShloMosaic.PureOps.Ideal
import Idealize.ShloMosaic.Lib.ValueIdx

noncomputable section

namespace Cert.EdgeConv

open Idealize.ShloMosaic Idealize.ShloMosaic.ValueIdx

/-- The zero word read as an extended real (never evaluated: the same word stands on both sides). -/
abbrev zw : EReal := Ideal.ofBits .f32 0x00000000#32

section Edge
variable {E D H O : ℕ}

/-- The message of edge `e` at feature `j`. -/
def edgeAt (xs xd : (⟨2, ![E, D]⟩ : Shape).Idx → EReal) (A B : (⟨2, ![D, H]⟩ : Shape).Idx → EReal)
    (W : (⟨2, ![H, O]⟩ : Shape).Idx → EReal) (e : Fin E) (j : Fin O) : EReal :=
  ∑ k : Fin H, max (∑ c : Fin D, xs (ix2 e c) * A (ix2 c k) + ∑ c : Fin D, xd (ix2 e c) * B (ix2 c k)) zw * W (ix2 k j)

/-- All messages as one array. -/
def edgeMsg (xs xd : (⟨2, ![E, D]⟩ : Shape).Idx → EReal) (A B : (⟨2, ![D, H]⟩ : Shape).Idx → EReal)
    (W : (⟨2, ![H, O]⟩ : Shape).Idx → EReal) : (⟨2, ![E, O]⟩ : Shape).Idx → EReal :=
  fun i => edgeAt xs xd A B W (i 0) (i 1)

theorem edgeMsg_apply (xs xd : (⟨2, ![E, D]⟩ : Shape).Idx → EReal) (A B : (⟨2, ![D, H]⟩ : Shape).Idx → EReal)
    (W : (⟨2, ![H, O]⟩ : Shape).Idx → EReal) (e : Fin E) (j : Fin O) :
    edgeMsg xs xd A B W (ix2 e j) = edgeAt xs xd A B W e j := rfl

/-- A message depends on the edge's own two rows only. -/
theorem edgeAt_congr {E' : ℕ} {xs xd : (⟨2, ![E, D]⟩ : Shape).Idx → EReal} {xs' xd' : (⟨2, ![E', D]⟩ : Shape).Idx → EReal}
    (A B : (⟨2, ![D, H]⟩ : Shape).Idx → EReal) (W : (⟨2, ![H, O]⟩ : Shape).Idx → EReal) {e : Fin E} {e' : Fin E'} (j : Fin O)
    (hs : ∀ c, xs (ix2 e c) = xs' (ix2 e' c)) (hd : ∀ c, xd (ix2 e c) = xd' (ix2 e' c)) :
    edgeAt xs xd A B W e j = edgeAt xs' xd' A B W e' j := by
  unfold edgeAt
  simp only [hs, hd]

end Edge

section Node
variable {N D O : ℕ}

/-- The output of node `n` at feature `j`. -/
def nodeAt (s : (⟨2, ![N, O]⟩ : Shape).Idx → EReal) (f : (⟨2, ![N, D]⟩ : Shape).Idx → EReal)
    (L : (⟨2, ![D, O]⟩ : Shape).Idx → EReal) (b : Fin O → EReal) (n : Fin N) (j : Fin O) : EReal :=
  (s (ix2 n j) + ∑ c : Fin D, f (ix2 n c) * L (ix2 c j)) + b j

/-- All outputs as one array. -/
def nodeOut (s : (⟨2, ![N, O]⟩ : Shape).Idx → EReal) (f : (⟨2, ![N, D]⟩ : Shape).Idx → EReal)
    (L : (⟨2, ![D, O]⟩ : Shape).Idx → EReal) (b : Fin O → EReal) : (⟨2, ![N, O]⟩ : Shape).Idx → EReal :=
  fun i => nodeAt s f L b (i 0) (i 1)

theorem nodeOut_apply (s : (⟨2, ![N, O]⟩ : Shape).Idx → EReal) (f : (⟨2, ![N, D]⟩ : Shape).Idx → EReal)
    (L : (⟨2, ![D, O]⟩ : Shape).Idx → EReal) (b : Fin O → EReal) (n : Fin N) (j : Fin O) :
    nodeOut s f L b (ix2 n j) = nodeAt s f L b n j := rfl

/-- An output depends on the node's own rows only. -/
theorem nodeAt_congr {N' : ℕ} {s : (⟨2, ![N, O]⟩ : Shape).Idx → EReal} {f : (⟨2, ![N, D]⟩ : Shape).Idx → EReal}
    {s' : (⟨2, ![N', O]⟩ : Shape).Idx → EReal} {f' : (⟨2, ![N', D]⟩ : Shape).Idx → EReal}
    (L : (⟨2, ![D, O]⟩ : Shape).Idx → EReal) (b : Fin O → EReal) {n : Fin N} {n' : Fin N'} (j : Fin O)
    (hs : s (ix2 n j) = s' (ix2 n' j)) (hf : ∀ c, f (ix2 n c) = f' (ix2 n' c)) :
    nodeAt s f L b n j = nodeAt s' f' L b n' j := by
  unfold nodeAt
  simp only [hs, hf]

/-- Bias before or after the self-loop term: addition on the extended reals is commutative and associative. -/
theorem add_bias_comm (x y z : EReal) : (x + z) + y = (x + y) + z := add_right_comm x z y

end Node

end Cert.EdgeConv

end
-- ==== Proof.Bodies.lean ====
/-
  What the two kernel bodies compute, read at one entry of the block they store, on the extended reals.

  The edge body multiplies its two row blocks by the two halves of the first weight matrix, adds the products, takes the
  maximum with zero and multiplies by the second weight matrix: at row p and column j of the block that is the edge
  message of row p of its inputs.  The node body adds to its first block the product of its second block with the
  self-loop weights and then the bias row repeated down the rows: at row p and column j that is the node output of row p.
  A product accumulated into the zero splat is the plain sum over the contracted coordinate; changes of storage format
  and casts to the same shape are the identity on the values.
-/
import proofs.«141383_j22179211116725_2_alg».proof.Proof.Gen.KernelIdeal.Skeleton
import proofs.«141383_j22179211116725_2_alg».proof.Proof.LibDense
import proofs.«141383_j22179211116725_2_alg».proof.Proof.LayerSpec

noncomputable section

namespace Cert.KernelIdeal.Bodies

open Cert.KernelIdeal Cert.KernelIdeal.Gen Cert.EdgeConv
open Idealize.ShloMosaic Idealize.ShloMosaic.ValueIdx

/-- A 6400×128 by 128×128 product into the zero splat at an entry. -/
theorem mm_edge {φ₁ φ₂ : FTy} (A : FVec Ideal S6400x128 φ₁) (B : FVec Ideal S128x128 φ₂) (p : Fin 6400) (k : Fin 128) :
    matmul dot_S6400x128_S128x128_S6400x128_1_0_0_1_n_n none A B (constant (F := Ideal) S6400x128 .f32 0x00000000#32) (ix2 p k)
      = ∑ c : Fin 128, A (ix2 p c) * B (ix2 c k) :=
  Cert.Dense.matmul_plain_apply dot_S6400x128_S128x128_S6400x128_1_0_0_1_n_n_wf A B p k

/-- A 5000×128 by 128×128 product into the zero splat at an entry. -/
theorem mm_node {φ₁ φ₂ : FTy} (A : FVec Ideal S5000x128 φ₁) (B : FVec Ideal S128x128 φ₂) (p : Fin 5000) (k : Fin 128) :
    matmul dot_S5000x128_S128x128_S5000x128_1_0_0_1_n_n none A B (constant (F := Ideal) S5000x128 .f32 0x00000000#32) (ix2 p k)
      = ∑ c : Fin 128, A (ix2 p c) * B (ix2 c k) :=
  Cert.Dense.matmul_plain_apply dot_S5000x128_S128x128_S5000x128_1_0_0_1_n_n_wf A B p k

/-- The edge body's stored value at row `p`, column `j` is the message of row `p` of its blocks. -/
theorem edge_payload (x0 x1 : Vec Ideal S6400x128 .bf16) (x2 x3 x4 : Vec Ideal S128x128 .bf16) (p : Fin 6400) (j : Fin 128) :
    k0_pay1 (F := Ideal) x0 x1 x2 x3 x4 (ix2 p j) = edgeAt x0 x1 x2 x3 x4 p j := by
  unfold k0_pay1
  simp only [shapeCast_self]
  refine (mm_edge (φ₁ := .bf16) (φ₂ := .bf16) _ _ p j).trans ?_
  unfold edgeAt
  refine Finset.sum_congr rfl fun k _ => ?_
  refine congrArg (· * x4 (ix2 k j)) ?_
  show max (matmul dot_S6400x128_S128x128_S6400x128_1_0_0_1_n_n none x0 x2 (constant (F := Ideal) S6400x128 .f32 0x00000000#32) (ix2 p k)
      + matmul dot_S6400x128_S128x128_S6400x128_1_0_0_1_n_n none x1 x3 (constant (F := Ideal) S6400x128 .f32 0x00000000#32) (ix2 p k)) zw = _
  rw [mm_edge (φ₁ := .bf16) (φ₂ := .bf16), mm_edge (φ₁ := .bf16) (φ₂ := .bf16)]

/-- The node body's stored value at row `p`, column `j` is the output of row `p` of its blocks, the bias read off the
    one-row block. -/
theorem node_payload (x0 : Vec Ideal S5000x128 .f32) (x1 : Vec Ideal S5000x128 .bf16) (x2 : Vec Ideal S128x128 .bf16)
    (x3 : Vec Ideal S1x128 .f32) (p : Fin 5000) (j : Fin 128) :
    k1_pay1 (F := Ideal) x0 x1 x2 x3 (ix2 p j) = nodeAt x0 x1 x2 (fun q => x3 (ix2 (0 : Fin 1) q)) p j := by
  unfold k1_pay1
  simp only [shapeCast_self]
  unfold nodeAt
  show (x0 (ix2 p j) + matmul dot_S5000x128_S128x128_S5000x128_1_0_0_1_n_n none x1 x2 (constant (F := Ideal) S5000x128 .f32 0x00000000#32) (ix2 p j))
      + broadcastTo S5000x128 x3 broadcasts_S1x128_S5000x128 (ix2 p j) = _
  rw [mm_node (φ₁ := .bf16) (φ₂ := .bf16), broadcastTo_1b_ab_apply]

end Cert.KernelIdeal.Bodies

end
-- ==== Proof.EdgeArray.lean ====
/-
  Region 0 (the edge stage) as one array.  The 800000 edges are cut into 125 blocks of 6400 rows; at block t the body
  reads rows 6400·t … 6400·t + 6399 of the two gathered row arrays and the three weight matrices whole, and writes back
  rows 6400·t … of the message array.  A message depends on its own edge's rows only, so what block t writes back is
  block t of the whole message array; the blocks tile the array (row r lies in block r / 6400), so after the last
  write-back the array holds the messages of all edges — whatever the buffers held when the region was entered.
-/
import proofs.«141383_j22179211116725_2_alg».proof.Proof.Gen.KernelIdeal.Frame
import proofs.«141383_j22179211116725_2_alg».proof.Proof.Bodies
import Idealize.ShloMosaic.Lib.Pipeline.Value

set_option maxRecDepth 16384

noncomputable section

namespace Cert.KernelIdeal.Arrays

open Cert.KernelIdeal Cert.KernelIdeal.Gen Cert.KernelIdeal.Bodies Cert.EdgeConv
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The printed block index maps of region 0, decided over its 125 points: the row windows sit at block row t, the
    weight windows at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt_points0 (t : Fin cfg0.N) : t.val < 125 := lt_of_lt_of_eq t.isLt N_0

/-- Row p of block t of the gathered source rows is row 6400·t + p of the array. -/
theorem read0_0 (c : Dev nD) (t : Fin cfg0.N) (p : Fin 6400) (q : Fin 128) (h : t.val * 6400 + p.val < 800000) :
    iblk0 V c 0 t (ix2 p q) = V c main_v7 (ix2 ⟨t.val * 6400 + p.val, h⟩ q) := by
  show V c main_v7 (((cfg0.win 0).blk t).view.emb (ix2 p q)) = _
  refine congrArg (V c main_v7) ?_
  obtain ⟨e0, e1, -⟩ := idx0 t
  funext a; apply Fin.ext
  match a with
  | ⟨0, _⟩ => show win0_0.index t (0 : Fin 2) * 6400 + 1 * p.val = t.val * 6400 + p.val; omega
  | ⟨1, _⟩ => show win0_0.index t (1 : Fin 2) * 128 + 1 * q.val = q.val; omega

/-- Row p of block t of the gathered destination rows is row 6400·t + p of the array. -/
theorem read0_1 (c : Dev nD) (t : Fin cfg0.N) (p : Fin 6400) (q : Fin 128) (h : t.val * 6400 + p.val < 800000) :
    iblk0 V c 1 t (ix2 p q) = V c main_v14 (ix2 ⟨t.val * 6400 + p.val, h⟩ q) := by
  show V c main_v14 (((cfg0.win 1).blk t).view.emb (ix2 p q)) = _
  refine congrArg (V c main_v14) ?_
  obtain ⟨-, -, e0, e1, -⟩ := idx0 t
  funext a; apply Fin.ext
  match a with
  | ⟨0, _⟩ => show win0_1.index t (0 : Fin 2) * 6400 + 1 * p.val = t.val * 6400 + p.val; omega
  | ⟨1, _⟩ => show win0_1.index t (1 : Fin 2) * 128 + 1 * q.val = q.val; omega

/-- The three weight windows hold their arrays whole at every point. -/
theorem read0_2 (c : Dev nD) (t : Fin cfg0.N) : iblk0 V c 2 t = V c main_v16 := by
  funext y
  show V c main_v16 (((cfg0.win 2).blk t).view.emb y) = V c main_v16 y
  refine congrArg (V c main_v16) ?_
  obtain ⟨-, -, -, -, e0, e1, -⟩ := idx0 t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem read0_3 (c : Dev nD) (t : Fin cfg0.N) : iblk0 V c 3 t = V c main_v18 := by
  funext y
  show V c main_v18 (((cfg0.win 3).blk t).view.emb y) = V c main_v18 y
  refine congrArg (V c main_v18) ?_
  obtain ⟨-, -, -, -, -, -, e0, e1, -⟩ := idx0 t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem read0_4 (c : Dev nD) (t : Fin cfg0.N) : iblk0 V c 4 t = V c main_v19 := by
  funext y
  show V c main_v19 (((cfg0.win 4).blk t).view.emb y) = V c main_v19 y
  refine congrArg (V c main_v19) ?_
  obtain ⟨-, -, -, -, -, -, -, -, e0, e1, -⟩ := idx0 t
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Entry (p, j) of the output block at point t is entry (6400·t + p, j) of the message array. -/
theorem emb0_5 (t : Fin cfg0.N) (p : Fin 6400) (j : Fin 128) (h : t.val * 6400 + p.val < 800000) :
    ((cfg0.win 5).blk t).view.emb (ix2 p j) = ix2 ⟨t.val * 6400 + p.val, h⟩ j := by
  obtain ⟨-, -, -, -, -, -, -, -, -, -, e0, e1⟩ := idx0 t
  funext a; apply Fin.ext
  match a with
  | ⟨0, _⟩ => show win0_5.index t (0 : Fin 2) * 6400 + 1 * p.val = t.val * 6400 + p.val; omega
  | ⟨1, _⟩ => show win0_5.index t (1 : Fin 2) * 128 + 1 * j.val = j.val; omega

/-- What point t writes back is block t of the message array of the buffers the region found. -/
theorem edge_flushed (c : Dev nD) (t : Fin cfg0.N) :
    (dat0 (F := Ideal) V c).flushed 5 t
      = ((cfg0.win 5).blk t).view.read (Elt Ideal)
          (edgeMsg (V c main_v7) (V c main_v14) (V c main_v16) (V c main_v18) (V c main_v19)) := by
  show (cfg0.win 5).cut (grid0.coords t) ((dat0 V c).after 5 t) = _
  rw [after0_5]
  unfold out0_5
  rw [View.canon_unit_zero zero_off]
  simp only [View.ld_unit_zero (S := S6400x128) zero_off, View.ld_unit_zero (S := S128x128) zero_off]
  rw [read0_2, read0_3, read0_4]
  funext y
  obtain ⟨p, j, rfl⟩ : ∃ (p : Fin 6400) (j : Fin 128), y = ix2 p j := ⟨y 0, y 1, eq_ix2 y⟩
  have hp : t.val * 6400 + p.val < 800000 := by have := lt_points0 t; have := p.isLt; omega
  show k0_pay1 (iblk0 V c 0 t) (iblk0 V c 1 t) (V c main_v16) (V c main_v18) (V c main_v19) (ix2 p j)
    = edgeMsg (V c main_v7) (V c main_v14) (V c main_v16) (V c main_v18) (V c main_v19) (((cfg0.win 5).blk t).view.emb (ix2 p j))
  rw [emb0_5 t p j hp, edgeMsg_apply]
  refine (edge_payload _ _ _ _ _ p j).trans ?_
  exact edgeAt_congr _ _ _ j (fun q => read0_0 V c t p q hp) (fun q => read0_1 V c t p q hp)

/-- An entry of the message array is in point t's block iff each coordinate is in the block's range on its axis. -/
theorem mem_blk0_5 (t : Fin cfg0.N) (i : S800000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v20).slice (win0_5.rect t)).set ↔ _
  rw [View.set_slice_whole, Rect.mem_set_unit]
  exact Iff.rfl

/-- Every entry of the message array is in some point's block: row r in block r / 6400. -/
theorem edge_cover (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  have hN : (i 0).val / 6400 < cfg0.N := by rw [show cfg0.N = 125 from N_0]; omega
  refine ⟨⟨(i 0).val / 6400, hN⟩, flush0_5 _, ?_⟩
  rw [mem_blk0_5]
  obtain ⟨-, -, -, -, -, -, -, -, -, -, e0, e1⟩ := idx0 ⟨(i 0).val / 6400, hN⟩
  intro a
  match a with
  | ⟨0, _⟩ =>
    show win0_5.index ⟨(i 0).val / 6400, hN⟩ (0 : Fin 2) * 6400 ≤ (i 0).val ∧ (i 0).val < win0_5.index ⟨(i 0).val / 6400, hN⟩ (0 : Fin 2) * 6400 + 6400
    rw [e0]; show (i 0).val / 6400 * 6400 ≤ (i 0).val ∧ (i 0).val < (i 0).val / 6400 * 6400 + 6400; omega
  | ⟨1, _⟩ =>
    show win0_5.index ⟨(i 0).val / 6400, hN⟩ (1 : Fin 2) * 128 ≤ (i 1).val ∧ (i 1).val < win0_5.index ⟨(i 0).val / 6400, hN⟩ (1 : Fin 2) * 128 + 128
    rw [e1]; omega

/-- After region 0 the message array holds the messages of all edges, computed from the buffers the region found. -/
theorem edge_final (c : Dev nD) :
    (dat0 (F := Ideal) V c).arrAt 5 cfg0.N
      = edgeMsg (V c main_v7) (V c main_v14) (V c main_v16) (V c main_v18) (V c main_v19) :=
  (dat0 (F := Ideal) V c).arrAt_eq_of_cover 5 _ (fun t _ => edge_flushed V c t) edge_cover

end Cert.KernelIdeal.Arrays

end
-- ==== Proof.NodeArray.lean ====
/-
  Region 1 (the node stage) as one array.  The 50000 nodes are cut into 10 blocks of 5000 rows; at block t the body reads
  rows 5000·t … of the aggregated messages and of the node features, the self-loop weights and the one-row bias whole,
  and writes back rows 5000·t … of the result.  A node's output depends on its own rows only, so what block t writes
  back is block t of the whole result array, and the blocks tile it (row r lies in block r / 5000).
-/
import proofs.«141383_j22179211116725_2_alg».proof.Proof.Gen.KernelIdeal.Frame
import proofs.«141383_j22179211116725_2_alg».proof.Proof.Bodies
import Idealize.ShloMosaic.Lib.Pipeline.Value

set_option maxRecDepth 16384

noncomputable section

namespace Cert.KernelIdeal.NodeArrays

open Cert.KernelIdeal Cert.KernelIdeal.Gen Cert.KernelIdeal.Bodies Cert.EdgeConv
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The printed block index maps of region 1, decided over its 10 points: the row windows sit at block row t, the
    weight and bias windows at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_points1 (t : Fin cfg1.N) : t.val < 10 := lt_of_lt_of_eq t.isLt N_1

/-- Row p of block t of the aggregated messages is row 5000·t + p of the array. -/
theorem read1_0 (c : Dev nD) (t : Fin cfg1.N) (p : Fin 5000) (q : Fin 128) (h : t.val * 5000 + p.val < 50000) :
    iblk1 V c 0 t (ix2 p q) = V c main_v23 (ix2 ⟨t.val * 5000 + p.val, h⟩ q) := by
  show V c main_v23 (((cfg1.win 0).blk t).view.emb (ix2 p q)) = _
  refine congrArg (V c main_v23) ?_
  obtain ⟨e0, e1, -⟩ := idx1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

/-- Row p of block t of the node features is row 5000·t + p of the array. -/
theorem read1_1 (c : Dev nD) (t : Fin cfg1.N) (p : Fin 5000) (q : Fin 128) (h : t.val * 5000 + p.val < 50000) :
    iblk1 V c 1 t (ix2 p q) = V c main_v0 (ix2 ⟨t.val * 5000 + p.val, h⟩ q) := by
  show V c main_v0 (((cfg1.win 1).blk t).view.emb (ix2 p q)) = _
  refine congrArg (V c main_v0) ?_
  obtain ⟨-, -, e0, e1, -⟩ := idx1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * q.val = q.val; omega

/-- The weight and bias windows hold their arrays whole at every point. -/
theorem read1_2 (c : Dev nD) (t : Fin cfg1.N) : iblk1 V c 2 t = V c main_v24 := by
  funext y
  show V c main_v24 (((cfg1.win 2).blk t).view.emb y) = V c main_v24 y
  refine congrArg (V c main_v24) ?_
  obtain ⟨-, -, -, -, e0, e1, -⟩ := idx1 t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem read1_3 (c : Dev nD) (t : Fin cfg1.N) : iblk1 V c 3 t = V c main_v25 := by
  funext y
  show V c main_v25 (((cfg1.win 3).blk t).view.emb y) = V c main_v25 y
  refine congrArg (V c main_v25) ?_
  obtain ⟨-, -, -, -, -, -, e0, e1, -⟩ := idx1 t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Entry (p, j) of the output block at point t is entry (5000·t + p, j) of the result array. -/
theorem emb1_4 (t : Fin cfg1.N) (p : Fin 5000) (j : Fin 128) (h : t.val * 5000 + p.val < 50000) :
    ((cfg1.win 4).blk t).view.emb (ix2 p j) = ix2 ⟨t.val * 5000 + p.val, h⟩ j := by
  obtain ⟨-, -, -, -, -, -, -, -, e0, e1⟩ := idx1 t
  funext a; apply Fin.ext
  match a with
  | ⟨0, _⟩ => show win1_4.index t (0 : Fin 2) * 5000 + 1 * p.val = t.val * 5000 + p.val; omega
  | ⟨1, _⟩ => show win1_4.index t (1 : Fin 2) * 128 + 1 * j.val = j.val; omega

/-- What point t writes back is block t of the result array of the buffers the region found. -/
theorem node_flushed (c : Dev nD) (t : Fin cfg1.N) :
    (dat1 (F := Ideal) V c).flushed 4 t
      = ((cfg1.win 4).blk t).view.read (Elt Ideal)
          (nodeOut (V c main_v23) (V c main_v0) (V c main_v24) (fun q => V c main_v25 (ix2 (0 : Fin 1) q))) := by
  show (cfg1.win 4).cut (grid1.coords t) ((dat1 V c).after 4 t) = _
  rw [after1_4]
  unfold out1_4
  rw [View.canon_unit_zero zero_off]
  simp only [View.ld_unit_zero (S := S5000x128) zero_off, View.ld_unit_zero (S := S128x128) zero_off,
    View.ld_unit_zero (S := S1x128) zero_off]
  rw [read1_2, read1_3]
  funext y
  obtain ⟨p, j, rfl⟩ : ∃ (p : Fin 5000) (j : Fin 128), y = ix2 p j := ⟨y 0, y 1, eq_ix2 y⟩
  have hp : t.val * 5000 + p.val < 50000 := by have := lt_points1 t; have := p.isLt; omega
  show k1_pay1 (iblk1 V c 0 t) (iblk1 V c 1 t) (V c main_v24) (V c main_v25) (ix2 p j)
    = nodeOut (V c main_v23) (V c main_v0) (V c main_v24) (fun q => V c main_v25 (ix2 (0 : Fin 1) q)) (((cfg1.win 4).blk t).view.emb (ix2 p j))
  rw [emb1_4 t p j hp, nodeOut_apply]
  refine (node_payload _ _ _ _ p j).trans ?_
  exact nodeAt_congr _ _ j (read1_0 V c t p j hp) (fun q => read1_1 V c t p q hp)

/-- An entry of the result array is in point t's block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v26).slice (win1_4.rect t)).set ↔ _
  rw [View.set_slice_whole, Rect.mem_set_unit]
  exact Iff.rfl

/-- Every entry of the result array is in some point's block: row r in block r / 5000. -/
theorem node_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < cfg1.N := by rw [show cfg1.N = 10 from N_1]; omega
  refine ⟨⟨(i 0).val / 5000, hN⟩, flush1_4 _, ?_⟩
  rw [mem_blk1_4]
  obtain ⟨-, -, -, -, -, -, -, -, e0, e1⟩ := idx1 ⟨(i 0).val / 5000, hN⟩
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    rw [e1]; omega

/-- After region 1 the result array holds the outputs of all nodes, computed from the buffers the region found. -/
theorem node_final (c : Dev nD) :
    (dat1 (F := Ideal) V c).arrAt 4 cfg1.N
      = nodeOut (V c main_v23) (V c main_v0) (V c main_v24) (fun q => V c main_v25 (ix2 (0 : Fin 1) q)) :=
  (dat1 (F := Ideal) V c).arrAt_eq_of_cover 4 _ (fun t _ => node_flushed V c t) node_cover

end Cert.KernelIdeal.NodeArrays

end
-- ==== Proof.Folds.lean ====
/-
  The buffer contents at the program's boundaries, read at the buffers the value depends on.

  Before region 0 the host has rounded the node features (the identity on the values), wrapped each index word
  (a negative word gets the node count added), laid the words out as a column, gathered the source and the destination
  rows, cut the first weight matrix into its upper and lower row blocks and rounded the weights.  Region 0 leaves the
  message array; nothing else it touches changes.  Between the regions the host adds the messages into a zero array at
  the rows named by the destination column, rounds the self-loop weights and lays the bias out as a one-row matrix.
  Region 1 leaves the result array.  Reading the folds back gives the result as one term of the launch contents.
-/
import proofs.«141383_j22179211116725_2_alg».proof.Proof.Gen.KernelIdeal.Frame
import proofs.«141383_j22179211116725_2_alg».proof.Proof.EdgeArray
import proofs.«141383_j22179211116725_2_alg».proof.Proof.NodeArray
import Idealize.ShloMosaic.Lib.StableHlo.Run
import Idealize.ShloMosaic.Lib.ValueLayout

set_option maxRecDepth 16384

noncomputable section

namespace Cert.KernelIdeal.Folds

open Cert.KernelIdeal Cert.KernelIdeal.Gen Cert.EdgeConv
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- An index array with its negative words wrapped by the node count, laid out as a column. -/
def idxCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- Rows gathered from the node features at a column of indices. -/
def rowsAt (f : FVec Ideal S50000x128 .f32) (ix : IVec S800000x1 32) : FVec Ideal S800000x128 .f32 :=
  Host.gather gather_S50000x128_S800000x1_S800000x128_1_0_n_n_0_1_1128 f ix

/-- Messages added into a zero array at the rows a column of indices names. -/
def aggregate (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-! ## Before region 0 -/

theorem V1_v0 (c : Dev nD) : V1 m ρ c main_v0 = m ((c : Thread nD τ).loc main_arg0) := by
  show StableHlo.after hostOps0 (W0 m ρ c) (Proc.devRef .tc main_v0) = _
  after_results_simp
  rfl

theorem V1_v7 (c : Dev nD) :
    V1 m ρ c main_v7 = rowsAt (m ((c : Thread nD τ).loc main_arg0)) (idxCol (m ((c : Thread nD τ).loc main_arg1))) := by
  show StableHlo.after hostOps0 (W0 m ρ c) (Proc.devRef .tc main_v7) = _
  after_results_simp
  rfl

theorem V1_v14 (c : Dev nD) :
    V1 m ρ c main_v14 = rowsAt (m ((c : Thread nD τ).loc main_arg0)) (idxCol (m ((c : Thread nD τ).loc main_arg2))) := by
  show StableHlo.after hostOps0 (W0 m ρ c) (Proc.devRef .tc main_v14) = _
  after_results_simp
  rfl

theorem V1_v16 (c : Dev nD) :
    V1 m ρ c main_v16 = extractStridedSlice S128x128 ![0, 0] (m ((c : Thread nD τ).loc main_arg3)) slices_S256x128_S128x128_0_0 := by
  show StableHlo.after hostOps0 (W0 m ρ c) (Proc.devRef .tc main_v16) = _
  after_results_simp
  rfl

theorem V1_v18 (c : Dev nD) :
    V1 m ρ c main_v18 = extractStridedSlice S128x128 ![128, 0] (m ((c : Thread nD τ).loc main_arg3)) slices_S256x128_S128x128_128_0 := by
  show StableHlo.after hostOps0 (W0 m ρ c) (Proc.devRef .tc main_v18) = _
  after_results_simp
  rfl

theorem V1_v19 (c : Dev nD) : V1 m ρ c main_v19 = m ((c : Thread nD τ).loc main_arg4) := by
  show StableHlo.after hostOps0 (W0 m ρ c) (Proc.devRef .tc main_v19) = _
  after_results_simp
  rfl

theorem V1_arg2 (c : Dev nD) : V1 m ρ c main_arg2 = m ((c : Thread nD τ).loc main_arg2) := by
  show StableHlo.after hostOps0 (W0 m ρ c) (Proc.devRef .tc main_arg2) = _
  after_results_simp

theorem V1_arg5 (c : Dev nD) : V1 m ρ c main_arg5 = m ((c : Thread nD τ).loc main_arg5) := by
  show StableHlo.after hostOps0 (W0 m ρ c) (Proc.devRef .tc main_arg5) = _
  after_results_simp

theorem V1_arg6 (c : Dev nD) : V1 m ρ c main_arg6 = m ((c : Thread nD τ).loc main_arg6) := by
  show StableHlo.after hostOps0 (W0 m ρ c) (Proc.devRef .tc main_arg6) = _
  after_results_simp

/-! ## After region 0 -/

/-- Region 0 leaves the messages of all edges in its output array. -/
theorem V2_v20 (c : Dev nD) :
    V2 m ρ c main_v20
      = edgeMsg (rowsAt (m ((c : Thread nD τ).loc main_arg0)) (idxCol (m ((c : Thread nD τ).loc main_arg1))))
          (rowsAt (m ((c : Thread nD τ).loc main_arg0)) (idxCol (m ((c : Thread nD τ).loc main_arg2))))
          (extractStridedSlice S128x128 ![0, 0] (m ((c : Thread nD τ).loc main_arg3)) slices_S256x128_S128x128_0_0)
          (extractStridedSlice S128x128 ![128, 0] (m ((c : Thread nD τ).loc main_arg3)) slices_S256x128_S128x128_128_0)
          (m ((c : Thread nD τ).loc main_arg4)) := by
  refine (W2_arr m ρ c 5).trans ?_
  rw [Arrays.edge_final (V1 m ρ) c, V1_v7, V1_v14, V1_v16, V1_v18, V1_v19]

/-- Region 0 writes nothing else that is read later. -/
theorem V2_arg2 (c : Dev nD) : V2 m ρ c main_arg2 = m ((c : Thread nD τ).loc main_arg2) :=
  (W2_of_ne m ρ c main_arg2 (by decide)).trans (V1_arg2 m ρ c)
theorem V2_arg5 (c : Dev nD) : V2 m ρ c main_arg5 = m ((c : Thread nD τ).loc main_arg5) :=
  (W2_of_ne m ρ c main_arg5 (by decide)).trans (V1_arg5 m ρ c)
theorem V2_arg6 (c : Dev nD) : V2 m ρ c main_arg6 = m ((c : Thread nD τ).loc main_arg6) :=
  (W2_of_ne m ρ c main_arg6 (by decide)).trans (V1_arg6 m ρ c)
theorem V2_v0 (c : Dev nD) : V2 m ρ c main_v0 = m ((c : Thread nD τ).loc main_arg0) :=
  (W2_of_ne m ρ c main_v0 (by decide)).trans (V1_v0 m ρ c)

/-! ## Before region 1 -/

theorem V3_v23 (c : Dev nD) :
    V3 m ρ c main_v23
      = aggregate (m ((c : Thread nD τ).loc main_arg2))
          (edgeMsg (rowsAt (m ((c : Thread nD τ).loc main_arg0)) (idxCol (m ((c : Thread nD τ).loc main_arg1))))
            (rowsAt (m ((c : Thread nD τ).loc main_arg0)) (idxCol (m ((c : Thread nD τ).loc main_arg2))))
            (extractStridedSlice S128x128 ![0, 0] (m ((c : Thread nD τ).loc main_arg3)) slices_S256x128_S128x128_0_0)
            (extractStridedSlice S128x128 ![128, 0] (m ((c : Thread nD τ).loc main_arg3)) slices_S256x128_S128x128_128_0)
            (m ((c : Thread nD τ).loc main_arg4))) := by
  have e : V3 m ρ c main_v23 = aggregate (V2 m ρ c main_arg2) (V2 m ρ c main_v20) := by
    show StableHlo.after hostOps1 (W2 m ρ c) (Proc.devRef .tc main_v23) = _
    after_results_simp
    rfl
  rw [e, V2_arg2, V2_v20]

theorem V3_v0 (c : Dev nD) : V3 m ρ c main_v0 = m ((c : Thread nD τ).loc main_arg0) := by
  have e : V3 m ρ c main_v0 = V2 m ρ c main_v0 := by
    show StableHlo.after hostOps1 (W2 m ρ c) (Proc.devRef .tc main_v0) = _
    after_results_simp
  rw [e, V2_v0]

theorem V3_v24 (c : Dev nD) : V3 m ρ c main_v24 = m ((c : Thread nD τ).loc main_arg5) := by
  have e : V3 m ρ c main_v24 = V2 m ρ c main_arg5 := by
    show StableHlo.after hostOps1 (W2 m ρ c) (Proc.devRef .tc main_v24) = _
    after_results_simp
    rfl
  rw [e, V2_arg5]

theorem V3_v25 (c : Dev nD) (q : Fin 128) :
    V3 m ρ c main_v25 (ix2 (0 : Fin 1) q) = m ((c : Thread nD τ).loc main_arg6) (ix1 q) := by
  have e : V3 m ρ c main_v25 = shapeCast S1x128 (V2 m ρ c main_arg6) shapeCasts_S128_S1x128 := by
    show StableHlo.after hostOps1 (W2 m ρ c) (Proc.devRef .tc main_v25) = _
    after_results_simp
    rfl
  rw [e, shapeCast_a_1a_apply, V2_arg6]

/-! ## After region 1 -/

/-- The result array after the run, as one term of the launch contents: the node stage of the aggregated edge stage
    of the gathered rows. -/
theorem result_value (c : Dev nD) :
    W4 m ρ c (Proc.devRef .tc main_v26)
      = nodeOut
          (aggregate (m ((c : Thread nD τ).loc main_arg2))
            (edgeMsg (rowsAt (m ((c : Thread nD τ).loc main_arg0)) (idxCol (m ((c : Thread nD τ).loc main_arg1))))
              (rowsAt (m ((c : Thread nD τ).loc main_arg0)) (idxCol (m ((c : Thread nD τ).loc main_arg2))))
              (extractStridedSlice S128x128 ![0, 0] (m ((c : Thread nD τ).loc main_arg3)) slices_S256x128_S128x128_0_0)
              (extractStridedSlice S128x128 ![128, 0] (m ((c : Thread nD τ).loc main_arg3)) slices_S256x128_S128x128_128_0)
              (m ((c : Thread nD τ).loc main_arg4))))
          (m ((c : Thread nD τ).loc main_arg0)) (m ((c : Thread nD τ).loc main_arg5))
          (fun q => m ((c : Thread nD τ).loc main_arg6) (ix1 q)) := by
  refine (W4_arr m ρ c 4).trans ?_
  have e : (fun q : Fin 128 => V3 m ρ c main_v25 (ix2 (0 : Fin 1) q)) = fun q => m ((c : Thread nD τ).loc main_arg6) (ix1 q) :=
    funext fun q => V3_v25 m ρ c q
  rw [NodeArrays.node_final (V3 m ρ) c, V3_v23, V3_v0, V3_v24, e]

end Cert.KernelIdeal.Folds

end
-- ==== Proof.RefLayer.lean ====
/-
  The reference's result, read as the two dense stages of the layer.

  The reference joins each edge's source and destination rows side by side and multiplies the joined row by the whole
  first weight matrix: the sum over the 2·128 joined coordinates is the sum over the first 128 (the source row against
  the upper row block of the weights) plus the sum over the last 128 (the destination row against the lower block).
  The maximum with the zero array, the second product, and the aggregation at the destination indices follow; then the
  bias row is added before the self-loop product, which differs from adding it after by the order of two additions.
-/
import proofs.«141383_j22179211116725_2_alg».proof.Proof.Gen.ReferenceIdeal.Run
import proofs.«141383_j22179211116725_2_alg».proof.Proof.LibDense
import proofs.«141383_j22179211116725_2_alg».proof.Proof.LayerSpec
import Idealize.ShloMosaic.Lib.ValueLayout

noncomputable section

namespace Cert.ReferenceIdeal.Layer

open Cert.ReferenceIdeal Cert.ReferenceIdeal.Gen Cert.EdgeConv
open Idealize.ShloMosaic Idealize.ShloMosaic.ValueIdx

/-- An index array with its negative words wrapped by the node count, laid out as a column. -/
def idxCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- Rows gathered from the node features at a column of indices. -/
def rowsAt (f : FVec Ideal S50000x128 .f32) (ix : IVec S800000x1 32) : FVec Ideal S800000x128 .f32 :=
  Host.gather gather_S50000x128_S800000x1_S800000x128_1_0_n_n_0_1_1128 f ix

/-- Messages added into a zero array at the rows a column of indices names. -/
def aggregate (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-- The reference's two products around the maximum are the edge messages, for ANY two 128×128 matrices that are the
    upper and the lower row block of the first weight matrix. -/
theorem edges_eq (xs xd : FVec Ideal S800000x128 .f32) (W1 : FVec Ideal S256x128 .f32) (W2 : FVec Ideal S128x128 .f32)
    (A B : (⟨2, ![128, 128]⟩ : Shape).Idx → EReal)
    (hA : ∀ (c k : Fin 128) (h : c.val < 256), A (ix2 c k) = W1 (ix2 ⟨c.val, h⟩ k))
    (hB : ∀ (c k : Fin 128) (h : 128 + c.val < 256), B (ix2 c k) = W1 (ix2 ⟨128 + c.val, h⟩ k)) :
    Host.dotGeneral dot_S800000x128_S128x128_S800000x128_1_0_0_1_n_n none
        (maximumf (Host.dotGeneral dot_S800000x256_S256x128_S800000x128_1_0_0_1_n_n none
            (concatenate S800000x256 1 [⟨S800000x128, xs⟩, ⟨S800000x128, xd⟩] concatenates_S800000x128_S800000x128_S800000x256_d1) W1)
          (broadcastInDim S800000x128 ![] bcast_S_S800000x128 (constant (F := Ideal) S_ .f32 0x00000000#32))) W2
      = edgeMsg xs xd A B W2 := by
  funext i
  obtain ⟨e, j, rfl⟩ : ∃ (e : Fin 800000) (j : Fin 128), i = ix2 e j := ⟨i 0, i 1, eq_ix2 i⟩
  rw [edgeMsg_apply]
  refine (Cert.Dense.hostDot_plain_apply (φ₁ := .f32) (φ₂ := .f32) dot_S800000x128_S128x128_S800000x128_1_0_0_1_n_n_wf _ W2 e j).trans ?_
  unfold edgeAt
  refine Finset.sum_congr rfl fun k _ => ?_
  refine congrArg (· * W2 (ix2 k j)) ?_
  show max (Host.dotGeneral dot_S800000x256_S256x128_S800000x128_1_0_0_1_n_n none
        (concatenate S800000x256 1 [⟨S800000x128, xs⟩, ⟨S800000x128, xd⟩] concatenates_S800000x128_S800000x128_S800000x256_d1) W1 (ix2 e k))
      (broadcastInDim S800000x128 ![] bcast_S_S800000x128 (constant (F := Ideal) S_ .f32 0x00000000#32) (ix2 e k)) = _
  rw [Cert.Dense.bcastScalar_apply]
  refine congrArg (max · zw) ?_
  refine (Cert.Dense.hostDot_plain_apply (φ₁ := .f32) (φ₂ := .f32) dot_S800000x256_S256x128_S800000x128_1_0_0_1_n_n_wf _ W1 e k).trans ?_
  rw [Cert.Dense.sum_split2 (p := 128) (q := 128) (r := 256) rfl]
  refine congrArg₂ (· + ·) (Finset.sum_congr rfl fun c _ => ?_) (Finset.sum_congr rfl fun c _ => ?_)
  · rw [Cert.Dense.concatCols2_left, hA]
  · rw [Cert.Dense.concatCols2_right, hB]

/-- The reference's closing additions are the node outputs, the bias read off the vector. -/
theorem nodes_eq (s f : FVec Ideal S50000x128 .f32) (L : FVec Ideal S128x128 .f32) (b : FVec Ideal S128 .f32) :
    addf (addf s (broadcastInDim S50000x128 ![0, 1] bcast_S1x128_S50000x128_0_1 (broadcastInDim S1x128 ![1] bcast_S128_S1x128_1 b)))
        (Host.dotGeneral dot_S50000x128_S128x128_S50000x128_1_0_0_1_n_n none f L)
      = nodeOut s f L (fun q => b (ix1 q)) := by
  funext i
  obtain ⟨n, j, rfl⟩ : ∃ (n : Fin 50000) (j : Fin 128), i = ix2 n j := ⟨i 0, i 1, eq_ix2 i⟩
  rw [nodeOut_apply]
  unfold nodeAt
  show (s (ix2 n j) + broadcastInDim S50000x128 ![0, 1] bcast_S1x128_S50000x128_0_1 (broadcastInDim S1x128 ![1] bcast_S128_S1x128_1 b) (ix2 n j))
      + Host.dotGeneral dot_S50000x128_S128x128_S50000x128_1_0_0_1_n_n none f L (ix2 n j) = _
  rw [Cert.Dense.bcastRows_apply, Cert.Dense.bcastRow_apply,
    show Host.dotGeneral dot_S50000x128_S128x128_S50000x128_1_0_0_1_n_n none f L (ix2 n j) = ∑ c : Fin 128, f (ix2 n c) * L (ix2 c j)
      from Cert.Dense.hostDot_plain_apply (φ₁ := .f32) (φ₂ := .f32) dot_S50000x128_S128x128_S50000x128_1_0_0_1_n_n_wf f L n j]
  exact add_bias_comm _ _ _

/-- The reference run's result term is the node stage of the aggregated edge stage of the gathered rows. -/
theorem result_eq (feat : FVec Ideal S50000x128 .f32) (a1 a2 : IVec S800000 32) (W1 : FVec Ideal S256x128 .f32)
    (W2 LW : FVec Ideal S128x128 .f32) (b : FVec Ideal S128 .f32)
    (A B : (⟨2, ![128, 128]⟩ : Shape).Idx → EReal)
    (hA : ∀ (c k : Fin 128) (h : c.val < 256), A (ix2 c k) = W1 (ix2 ⟨c.val, h⟩ k))
    (hB : ∀ (c k : Fin 128) (h : 128 + c.val < 256), B (ix2 c k) = W1 (ix2 ⟨128 + c.val, h⟩ k)) :
    addf (addf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 a2) (Host.dotGeneral dot_S800000x128_S128x128_S800000x128_1_0_0_1_n_n none (maximumf (Host.dotGeneral dot_S800000x256_S256x128_S800000x128_1_0_0_1_n_n none (concatenate S800000x256 1 [⟨S800000x128, (Host.gather gather_S50000x128_S800000x1_S800000x128_1_0_n_n_0_1_1128 feat (broadcastInDim S800000x1 ![0] bcast_S800000_S800000x1_0 (select (cmpi .slt a1 (broadcastInDim S800000 ![] bcast_S_S800000 (constantI S_ 32 0#32))) (addi a1 (broadcastInDim S800000 ![] bcast_S_S800000 (constantI S_ 32 50000#32))) a1)))⟩, ⟨S800000x128, (Host.gather gather_S50000x128_S800000x1_S800000x128_1_0_n_n_0_1_1128 feat (broadcastInDim S800000x1 ![0] bcast_S800000_S800000x1_0 (select (cmpi .slt a2 (broadcastInDim S800000 ![] bcast_S_S800000 (constantI S_ 32 0#32))) (addi a2 (broadcastInDim S800000 ![] bcast_S_S800000 (constantI S_ 32 50000#32))) a2)))⟩] concatenates_S800000x128_S800000x128_S800000x256_d1) W1) (broadcastInDim S800000x128 ![] bcast_S_S800000x128 (constant (F := Ideal) S_ .f32 0x00000000#32))) W2)) (broadcastInDim S50000x128 ![0, 1] bcast_S1x128_S50000x128_0_1 (broadcastInDim S1x128 ![1] bcast_S128_S1x128_1 b))) (Host.dotGeneral dot_S50000x128_S128x128_S50000x128_1_0_0_1_n_n none feat LW)
      = nodeOut (aggregate a2 (edgeMsg (rowsAt feat (idxCol a1)) (rowsAt feat (idxCol a2)) A B W2)) feat LW (fun q => b (ix1 q)) := by
  rw [edges_eq _ _ W1 W2 A B hA hB]
  exact nodes_eq _ feat LW b

end Cert.ReferenceIdeal.Layer

end
-- ==== Proof.lean ====
/-
  A message-passing graph layer, two arrangements of one computation, proved equal on the extended reals.

  Both programs gather, for each of 800000 edges, the feature rows of its source and destination nodes (indices wrapped
  once by the node count), pass them through a two-layer edge network relu(· W1) W2, add the resulting messages into the
  rows of a zero array named by the destination indices, and add a bias and the node's own features times a self-loop
  matrix.  The kernel splits W1 into its upper and lower 128-row blocks and multiplies the source and destination rows
  separately (the sum over the 256 joined coordinates cut after the first 128), computes the messages in 125 blocks of
  6400 edges and the outputs in 10 blocks of 5000 nodes, and adds the bias after the self-loop term where the reference
  adds it before (commutativity and associativity of addition).  Rounding to a narrower format is the identity on the
  ideal values.  The gathers and the accumulating scatter are the same operations applied to equal operands on both
  sides and are never opened.  No finiteness of the inputs is used.

  The three frame claims: the two kernels' are the generated frame certificates; the reference's is its generated run
  with the result dropped.  The idealization rewrote nothing, so there is nothing to preserve.
-/
import proofs.«141383_j22179211116725_2_alg».proof.Defs
import proofs.«141383_j22179211116725_2_alg».proof.Proof.Gen.Kernel
import proofs.«141383_j22179211116725_2_alg».proof.Proof.Gen.Kernel.Skeleton
import proofs.«141383_j22179211116725_2_alg».proof.Proof.Gen.Kernel.Launch
import proofs.«141383_j22179211116725_2_alg».proof.Proof.Gen.Kernel.Points
import proofs.«141383_j22179211116725_2_alg».proof.Proof.Gen.Kernel.Frame
import proofs.«141383_j22179211116725_2_alg».proof.Proof.Gen.KernelIdeal
import proofs.«141383_j22179211116725_2_alg».proof.Proof.Gen.KernelIdeal.Skeleton
import proofs.«141383_j22179211116725_2_alg».proof.Proof.Gen.KernelIdeal.Launch
import proofs.«141383_j22179211116725_2_alg».proof.Proof.Gen.KernelIdeal.Points
import proofs.«141383_j22179211116725_2_alg».proof.Proof.Gen.KernelIdeal.Frame
import proofs.«141383_j22179211116725_2_alg».proof.Proof.Gen.ReferenceIdeal
import proofs.«141383_j22179211116725_2_alg».proof.Proof.Gen.ReferenceIdeal.Run
import proofs.«141383_j22179211116725_2_alg».proof.Proof.Gen.Pre_finite_inputs
import proofs.«141383_j22179211116725_2_alg».proof.Proof.NamedRun
import proofs.«141383_j22179211116725_2_alg».proof.Proof.Folds
import proofs.«141383_j22179211116725_2_alg».proof.Proof.RefLayer
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeConv

/-! ## The two programs' host stages are the same functions -/

theorem idxCol_eq (a : IVec Cert.KernelIdeal.S800000 32) :
    Cert.ReferenceIdeal.Layer.idxCol a = Cert.KernelIdeal.Folds.idxCol a := rfl

theorem rowsAt_eq (f : FVec Ideal Cert.KernelIdeal.S50000x128 .f32) (ix : IVec Cert.KernelIdeal.S800000x1 32) :
    Cert.ReferenceIdeal.Layer.rowsAt f ix = Cert.KernelIdeal.Folds.rowsAt f ix := rfl

theorem aggregate_eq (d : IVec Cert.KernelIdeal.S800000 32) (u : FVec Ideal Cert.KernelIdeal.S800000x128 .f32) :
    Cert.ReferenceIdeal.Layer.aggregate d u = Cert.KernelIdeal.Folds.aggregate d u := rfl

/-! ## The kernel's run, its result named as the layer -/

/-- The idealized kernel's result as one term of its argument arrays. -/
def layer (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v26) :=
  nodeOut
    (Cert.KernelIdeal.Folds.aggregate (m ((c.tc : Thread Cert.KernelIdeal.nD Cert.KernelIdeal.τ).loc Cert.KernelIdeal.main_arg2))
      (edgeMsg
        (Cert.KernelIdeal.Folds.rowsAt (m ((c.tc : Thread Cert.KernelIdeal.nD Cert.KernelIdeal.τ).loc Cert.KernelIdeal.main_arg0))
          (Cert.KernelIdeal.Folds.idxCol (m ((c.tc : Thread Cert.KernelIdeal.nD Cert.KernelIdeal.τ).loc Cert.KernelIdeal.main_arg1))))
        (Cert.KernelIdeal.Folds.rowsAt (m ((c.tc : Thread Cert.KernelIdeal.nD Cert.KernelIdeal.τ).loc Cert.KernelIdeal.main_arg0))
          (Cert.KernelIdeal.Folds.idxCol (m ((c.tc : Thread Cert.KernelIdeal.nD Cert.KernelIdeal.τ).loc Cert.KernelIdeal.main_arg2))))
        (extractStridedSlice Cert.KernelIdeal.S128x128 ![0, 0] (m ((c.tc : Thread Cert.KernelIdeal.nD Cert.KernelIdeal.τ).loc Cert.KernelIdeal.main_arg3)) Cert.KernelIdeal.Gen.slices_S256x128_S128x128_0_0)
        (extractStridedSlice Cert.KernelIdeal.S128x128 ![128, 0] (m ((c.tc : Thread Cert.KernelIdeal.nD Cert.KernelIdeal.τ).loc Cert.KernelIdeal.main_arg3)) Cert.KernelIdeal.Gen.slices_S256x128_S128x128_128_0)
        (m ((c.tc : Thread Cert.KernelIdeal.nD Cert.KernelIdeal.τ).loc Cert.KernelIdeal.main_arg4))))
    (m ((c.tc : Thread Cert.KernelIdeal.nD Cert.KernelIdeal.τ).loc Cert.KernelIdeal.main_arg0))
    (m ((c.tc : Thread Cert.KernelIdeal.nD Cert.KernelIdeal.τ).loc Cert.KernelIdeal.main_arg5))
    (fun q => m ((c.tc : Thread Cert.KernelIdeal.nD Cert.KernelIdeal.τ).loc Cert.KernelIdeal.main_arg6) (ix1 q))

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer of the (agreeing) argument arrays in their result. -/
theorem algebraic : Cert.algebraic_KernelIdeal_ReferenceIdeal := by
  intro m ρ m' ρ' _ hagree
  refine ⟨layer m, ?_, ?_⟩
  · exact (θ_run Cert.KernelIdeal.defs _ _).mono
      (fun r h c => ⟨(h c).1.trans (Cert.KernelIdeal.Folds.result_value m ρ c), (h c).2⟩)
      (Cert.KernelIdeal.Named.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    refine (Cert.ReferenceIdeal.Layer.result_eq _ _ _ _ _ _ _
      (extractStridedSlice Cert.KernelIdeal.S128x128 ![0, 0] (m ((c.tc : Thread Cert.KernelIdeal.nD Cert.KernelIdeal.τ).loc Cert.KernelIdeal.main_arg3)) Cert.KernelIdeal.Gen.slices_S256x128_S128x128_0_0)
      (extractStridedSlice Cert.KernelIdeal.S128x128 ![128, 0] (m ((c.tc : Thread Cert.KernelIdeal.nD Cert.KernelIdeal.τ).loc Cert.KernelIdeal.main_arg3)) Cert.KernelIdeal.Gen.slices_S256x128_S128x128_128_0)
      (fun q k h => (Cert.Dense.sliceRows_apply 0 _ _ q k (by omega)).trans (by simp only [Nat.zero_add]))
      (fun q k h => Cert.Dense.sliceRows_apply 128 _ _ q k h)).trans ?_
    rw [idxCol_eq, idxCol_eq, rowsAt_eq, rowsAt_eq, aggregate_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
